-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x25x128 : Shape := ⟨4, ![32, 512, 25, 128]⟩
abbrev S64x128 : Shape := ⟨2, ![64, 128]⟩
abbrev S256 : Shape := ⟨1, ![256]⟩
abbrev S_ : Shape := ⟨0, ![]⟩

class Facts : Prop where
  bcast_S_S32x512x25x128 : S_.BroadcastsInDim S32x512x25x128 (![] : Fin 0 → Fin S32x512x25x128.rank)
  reducesTo_S32x512x25x128_S_d0_1_2_3 : S32x512x25x128.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S32x512x25x128 .f32) (main_arg1 : FVec F S64x128 .f32) (main_arg2 : FVec F S64x128 .f32) (main_arg3 : IVec S256 32) (main_arg4 : IVec S256 32) : IVec S_ 1 :=
  let main_v0 : FVec F S32x512x25x128 .f32 := Host.absf main_arg0
  let main_cst : FVec F S_ .f32 := constant S_ .f32 0x7F800000#32
  let main_v1 : FVec F S32x512x25x128 .f32 := broadcastInDim S32x512x25x128 ![] bcast_S_S32x512x25x128 main_cst
  let main_v2 : IVec S32x512x25x128 1 := cmpf .olt main_v0 main_v1
  let main_c : IVec S_ 1 := constantI S_ 1 1#1
  let main_v3 : IVec S_ 1 := (fun x v => Host.reduce IntOp.andi x v reducesTo_S32x512x25x128_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S32x512x25x128 : Shape := ⟨4, ![32, 512, 25, 128]⟩
abbrev S64x128 : Shape := ⟨2, ![64, 128]⟩
abbrev S256 : Shape := ⟨1, ![256]⟩
abbrev S_ : Shape := ⟨0, ![]⟩
abbrev S512 : Shape := ⟨1, ![512]⟩
abbrev S256x1 : Shape := ⟨2, ![256, 1]⟩
abbrev S25 : Shape := ⟨1, ![25]⟩
abbrev S1 : Shape := ⟨1, ![1]⟩
abbrev S512x1 : Shape := ⟨2, ![512, 1]⟩
abbrev S1x25 : Shape := ⟨2, ![1, 25]⟩
abbrev S512x25 : Shape := ⟨2, ![512, 25]⟩
abbrev S12800 : Shape := ⟨1, ![12800]⟩
abbrev S1x12800 : Shape := ⟨2, ![1, 12800]⟩
abbrev S32x12800 : Shape := ⟨2, ![32, 12800]⟩
abbrev S409600 : Shape := ⟨1, ![409600]⟩
abbrev S409600x1 : Shape := ⟨2, ![409600, 1]⟩
abbrev S128x128 : Shape := ⟨2, ![128, 128]⟩
abbrev S409600x128 : Shape := ⟨2, ![409600, 128]⟩
abbrev S4096x128 : Shape := ⟨2, ![4096, 128]⟩
abbrev S4096x1 : Shape := ⟨2, ![4096, 1]⟩

abbrev nBuf : Space → Nat
  | .hbm => 39
  | .vmem => 7
  | .smem => 0
  | _ => 0

abbrev bufTy : (tb : Table) → Fin (tcTables nBuf tb) → BufTy
  | .hbm, ⟨0, _⟩ => ⟨S32x512x25x128, .f32⟩
  | .hbm, ⟨1, _⟩ => ⟨S64x128, .f32⟩
  | .hbm, ⟨2, _⟩ => ⟨S64x128, .f32⟩
  | .hbm, ⟨3, _⟩ => ⟨S256, .i32⟩
  | .hbm, ⟨4, _⟩ => ⟨S256, .i32⟩
  | .hbm, ⟨5, _⟩ => ⟨S_, .f32⟩
  | .hbm, ⟨6, _⟩ => ⟨S512, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S_, .f32⟩
  | .hbm, ⟨16, _⟩ => ⟨S256, .f32⟩
  | .hbm, ⟨17, _⟩ => ⟨S512, .f32⟩
  | .hbm, ⟨18, _⟩ => ⟨S_, .f32⟩
  | .hbm, ⟨19, _⟩ => ⟨S25, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S25, .f32⟩
  | .hbm, ⟨24, _⟩ => ⟨S512x1, .f32⟩
  | .hbm, ⟨25, _⟩ => ⟨S1x25, .f32⟩
  | .hbm, ⟨26, _⟩ => ⟨S512x25, .f32⟩
  | .hbm, ⟨27, _⟩ => ⟨S512x25, .f32⟩
  | .hbm, ⟨28, _⟩ => ⟨S512x25, .f32⟩
  | .hbm, ⟨29, _⟩ => ⟨S12800, .f32⟩
  | .hbm, ⟨30, _⟩ => ⟨S1x12800, .f32⟩
  | .hbm, ⟨31, _⟩ => ⟨S32x12800, .f32⟩
  | .hbm, ⟨32, _⟩ => ⟨S409600, .f32⟩
  | .hbm, ⟨33, _⟩ => ⟨S409600x1, .f32⟩
  | .hbm, ⟨34, _⟩ => ⟨S409600x1, .bf16⟩
  | .hbm, ⟨35, _⟩ => ⟨S128x128, .f32⟩
  | .hbm, ⟨36, _⟩ => ⟨S409600x128, .f32⟩
  | .hbm, ⟨37, _⟩ => ⟨S409600x128, .f32⟩
  | .hbm, ⟨38, _⟩ => ⟨S32x512x25x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x1, .bf16⟩
  | .local _ .vmem, ⟨4, _⟩ => ⟨S4096x1, .bf16⟩
  | .local _ .vmem, ⟨5, _⟩ => ⟨S4096x128, .f32⟩
  | .local _ .vmem, ⟨6, _⟩ => ⟨S4096x128, .f32⟩
  | _, _ => ⟨S32x512x25x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S_S256 : S_.BroadcastsInDim S256 (![] : Fin 0 → Fin S256.rank)
  bcast_S256_S256x1_0 : S256.BroadcastsInDim S256x1 (![0] : Fin 1 → Fin S256x1.rank)
  bcast_S_S25 : S_.BroadcastsInDim S25 (![] : Fin 0 → Fin S25.rank)
  bcast_S_S1 : S_.BroadcastsInDim S1 (![] : Fin 0 → Fin S1.rank)
  bcast_S512_S512x1_0 : S512.BroadcastsInDim S512x1 (![0] : Fin 1 → Fin S512x1.rank)
  bcast_S25_S1x25_1 : S25.BroadcastsInDim S1x25 (![1] : Fin 1 → Fin S1x25.rank)
  bcast_S512x1_S512x25_0_1 : S512x1.BroadcastsInDim S512x25 (![0, 1] : Fin 2 → Fin S512x25.rank)
  bcast_S1x25_S512x25_0_1 : S1x25.BroadcastsInDim S512x25 (![0, 1] : Fin 2 → Fin S512x25.rank)
  shapeCasts_S512x25_S12800 : S512x25.ShapeCasts S12800
  shapeCasts_S12800_S1x12800 : S12800.ShapeCasts S1x12800
  bcast_S1x12800_S32x12800_0_1 : S1x12800.BroadcastsInDim S32x12800 (![0, 1] : Fin 2 → Fin S32x12800.rank)
  shapeCasts_S32x12800_S409600 : S32x12800.ShapeCasts S409600
  shapeCasts_S409600_S409600x1 : S409600.ShapeCasts S409600x1
  bitsLt_bf16_f32 : FTy.bits .bf16 < FTy.bits .f32
  concatenates_S64x128_S64x128_S128x128_d0 : Shape.Concatenates [S64x128, S64x128] S128x128 0
  shapeCasts_S32x512x25x128_S409600x128 : S32x512x25x128.ShapeCasts S409600x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S4096x128_d1_w32 : S4096x128.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  shapeCasts_S409600x128_S32x512x25x128 : S409600x128.ShapeCasts S32x512x25x128
  scatter_S512_S256x1_S256_n_0_0_1_wf : ScatterDims.WF S512 S256x1 S256 [] [0] [0] 1
  scatter_S25_S1_S__n_0_0_0_wf : ScatterDims.WF S25 S1 S_ [] [0] [0] 0
  dot_S4096x128_S128x128_S4096x128_1_1_0_0_n_n_wf : DotDims.WF S4096x128 S128x128 S4096x128 [1] [1] [0] [0] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S409600x128.size a
  hwx0_0 : ∀ i : grid0.Coords, EltTy.bits .f32 = 32 ∨ (Rect.block (s := S409600x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S409600x1.size a
  hwx0_2 : ∀ i : grid0.Coords, EltTy.bits .bf16 = 32 ∨ (Rect.block (s := S409600x1) S4096x1.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S409600x128.size a
  hwx0_3 : ∀ i : grid0.Coords, EltTy.bits .f32 = 32 ∨ (Rect.block (s := S409600x128) S4096x128.size (cc0_transform_3 i) (hinb0_3 i)).WholeWords (EltTy.packing .f32)

variable [Facts₀]

def scatter_S512_S256x1_S256_n_0_0_1 : ScatterDims S512 S256x1 S256 where
  updateWindowDims := []
  insertedWindowDims := [0]
  scatterDimsToOperandDims := [0]
  indexVectorDim := 1
  wf := scatter_S512_S256x1_S256_n_0_0_1_wf
def scatter_S25_S1_S__n_0_0_0 : ScatterDims S25 S1 S_ where
  updateWindowDims := []
  insertedWindowDims := [0]
  scatterDimsToOperandDims := [0]
  indexVectorDim := 0
  wf := scatter_S25_S1_S__n_0_0_0_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v24) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x25x128 : Shape := ⟨4, ![32, 512, 25, 128]⟩
abbrev S64x128 : Shape := ⟨2, ![64, 128]⟩
abbrev S256 : Shape := ⟨1, ![256]⟩
abbrev S_ : Shape := ⟨0, ![]⟩
abbrev S512 : Shape := ⟨1, ![512]⟩
abbrev S256x1 : Shape := ⟨2, ![256, 1]⟩
abbrev S25 : Shape := ⟨1, ![25]⟩
abbrev S1 : Shape := ⟨1, ![1]⟩
abbrev S512x1 : Shape := ⟨2, ![512, 1]⟩
abbrev S1x25 : Shape := ⟨2, ![1, 25]⟩
abbrev S512x25 : Shape := ⟨2, ![512, 25]⟩
abbrev S1x512x25x1 : Shape := ⟨4, ![1, 512, 25, 1]⟩
abbrev S32x512x25x64 : Shape := ⟨4, ![32, 512, 25, 64]⟩

abbrev nBuf : Space → Nat
  | .hbm => 69
  | .vmem => 0
  | .smem => 0
  | _ => 0

abbrev bufTy : (tb : Table) → Fin (tcTables nBuf tb) → BufTy
  | .hbm, ⟨0, _⟩ => ⟨S32x512x25x128, .f32⟩
  | .hbm, ⟨1, _⟩ => ⟨S64x128, .f32⟩
  | .hbm, ⟨2, _⟩ => ⟨S64x128, .f32⟩
  | .hbm, ⟨3, _⟩ => ⟨S256, .i32⟩
  | .hbm, ⟨4, _⟩ => ⟨S256, .i32⟩
  | .hbm, ⟨5, _⟩ => ⟨S_, .f32⟩
  | .hbm, ⟨6, _⟩ => ⟨S512, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S_, .f32⟩
  | .hbm, ⟨16, _⟩ => ⟨S256, .f32⟩
  | .hbm, ⟨17, _⟩ => ⟨S512, .f32⟩
  | .hbm, ⟨18, _⟩ => ⟨S_, .f32⟩
  | .hbm, ⟨19, _⟩ => ⟨S25, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S25, .f32⟩
  | .hbm, ⟨24, _⟩ => ⟨S512x1, .f32⟩
  | .hbm, ⟨25, _⟩ => ⟨S1x25, .f32⟩
  | .hbm, ⟨26, _⟩ => ⟨S512x25, .f32⟩
  | .hbm, ⟨27, _⟩ => ⟨S512x25, .f32⟩
  | .hbm, ⟨28, _⟩ => ⟨S512x25, .f32⟩
  | .hbm, ⟨29, _⟩ => ⟨S1x512x25x1, .f32⟩
  | .hbm, ⟨30, _⟩ => ⟨S32x512x25x64, .f32⟩
  | .hbm, ⟨31, _⟩ => ⟨S32x512x25x64, .f32⟩
  | .hbm, ⟨32, _⟩ => ⟨S32x512x25x64, .f32⟩
  | .hbm, ⟨33, _⟩ => ⟨S_, .f32⟩
  | .hbm, ⟨34, _⟩ => ⟨S32x512x25x64, .f32⟩
  | .hbm, ⟨35, _⟩ => ⟨S32x512x25x64, .f32⟩
  | .hbm, ⟨36, _⟩ => ⟨S_, .f32⟩
  | .hbm, ⟨37, _⟩ => ⟨S32x512x25x64, .f32⟩
  | .hbm, ⟨38, _⟩ => ⟨S32x512x25x64, .f32⟩
  | .hbm, ⟨39, _⟩ => ⟨S_, .f32⟩
  | .hbm, ⟨40, _⟩ => ⟨S32x512x25x64, .f32⟩
  | .hbm, ⟨41, _⟩ => ⟨S32x512x25x64, .i1⟩
  | .hbm, ⟨42, _⟩ => ⟨S32x512x25x64, .f32⟩
  | .hbm, ⟨43, _⟩ => ⟨S32x512x25x64, .f32⟩
  | .hbm, ⟨44, _⟩ => ⟨S32x512x25x64, .f32⟩
  | .hbm, ⟨45, _⟩ => ⟨S32x512x25x64, .f32⟩
  | .hbm, ⟨46, _⟩ => ⟨S32x512x25x128, .f32⟩
  | .hbm, ⟨47, _⟩ => ⟨S32x512x25x128, .f32⟩
  | .hbm, ⟨48, _⟩ => ⟨S32x512x25x64, .f32⟩
  | .hbm, ⟨49, _⟩ => ⟨S32x512x25x64, .f32⟩
  | .hbm, ⟨50, _⟩ => ⟨S32x512x25x64, .f32⟩
  | .hbm, ⟨51, _⟩ => ⟨S_, .f32⟩
  | .hbm, ⟨52, _⟩ => ⟨S32x512x25x64, .f32⟩
  | .hbm, ⟨53, _⟩ => ⟨S32x512x25x64, .f32⟩
  | .hbm, ⟨54, _⟩ => ⟨S_, .f32⟩
  | .hbm, ⟨55, _⟩ => ⟨S32x512x25x64, .f32⟩
  | .hbm, ⟨56, _⟩ => ⟨S32x512x25x64, .f32⟩
  | .hbm, ⟨57, _⟩ => ⟨S_, .f32⟩
  | .hbm, ⟨58, _⟩ => ⟨S32x512x25x64, .f32⟩
  | .hbm, ⟨59, _⟩ => ⟨S32x512x25x64, .i1⟩
  | .hbm, ⟨60, _⟩ => ⟨S32x512x25x64, .f32⟩
  | .hbm, ⟨61, _⟩ => ⟨S32x512x25x64, .f32⟩
  | .hbm, ⟨62, _⟩ => ⟨S_, .f32⟩
  | .hbm, ⟨63, _⟩ => ⟨S1x512x25x1, .f32⟩
  | .hbm, ⟨64, _⟩ => ⟨S1x512x25x1, .f32⟩
  | .hbm, ⟨65, _⟩ => ⟨S32x512x25x64, .f32⟩
  | .hbm, ⟨66, _⟩ => ⟨S32x512x25x64, .f32⟩
  | .hbm, ⟨67, _⟩ => ⟨S32x512x25x128, .f32⟩
  | .hbm, ⟨68, _⟩ => ⟨S32x512x25x128, .f32⟩
  | _, _ => ⟨S32x512x25x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S256 : S_.BroadcastsInDim S256 (![] : Fin 0 → Fin S256.rank)
  bcast_S256_S256x1_0 : S256.BroadcastsInDim S256x1 (![0] : Fin 1 → Fin S256x1.rank)
  bcast_S_S25 : S_.BroadcastsInDim S25 (![] : Fin 0 → Fin S25.rank)
  bcast_S_S1 : S_.BroadcastsInDim S1 (![] : Fin 0 → Fin S1.rank)
  bcast_S512_S512x1_0 : S512.BroadcastsInDim S512x1 (![0] : Fin 1 → Fin S512x1.rank)
  bcast_S25_S1x25_1 : S25.BroadcastsInDim S1x25 (![1] : Fin 1 → Fin S1x25.rank)
  bcast_S512x1_S512x25_0_1 : S512x1.BroadcastsInDim S512x25 (![0, 1] : Fin 2 → Fin S512x25.rank)
  bcast_S1x25_S512x25_0_1 : S1x25.BroadcastsInDim S512x25 (![0, 1] : Fin 2 → Fin S512x25.rank)
  bcast_S512x25_S1x512x25x1_1_2 : S512x25.BroadcastsInDim S1x512x25x1 (![1, 2] : Fin 2 → Fin S1x512x25x1.rank)
  bcast_S_S32x512x25x64 : S_.BroadcastsInDim S32x512x25x64 (![] : Fin 0 → Fin S32x512x25x64.rank)
  bcast_S1x512x25x1_S32x512x25x64_0_1_2_3 : S1x512x25x1.BroadcastsInDim S32x512x25x64 (![0, 1, 2, 3] : Fin 4 → Fin S32x512x25x64.rank)
  bcast_S_S1x512x25x1 : S_.BroadcastsInDim S1x512x25x1 (![] : Fin 0 → Fin S1x512x25x1.rank)
  scatter_S512_S256x1_S256_n_0_0_1_wf : ScatterDims.WF S512 S256x1 S256 [] [0] [0] 1
  scatter_S25_S1_S__n_0_0_0_wf : ScatterDims.WF S25 S1 S_ [] [0] [0] 0
  dot_S32x512x25x128_S64x128_S32x512x25x64_3_1_012_0_n_n_wf : DotDims.WF S32x512x25x128 S64x128 S32x512x25x64 [3] [1] [0, 1, 2] [0] [] []
  dot_S32x512x25x64_S64x128_S32x512x25x128_3_0_012_1_n_n_wf : DotDims.WF S32x512x25x64 S64x128 S32x512x25x128 [3] [0] [0, 1, 2] [1] [] []

variable [Facts₀]

def scatter_S512_S256x1_S256_n_0_0_1 : ScatterDims S512 S256x1 S256 where
  updateWindowDims := []
  insertedWindowDims := [0]
  scatterDimsToOperandDims := [0]
  indexVectorDim := 1
  wf := scatter_S512_S256x1_S256_n_0_0_1_wf
def scatter_S25_S1_S__n_0_0_0 : ScatterDims S25 S1 S_ where
  updateWindowDims := []
  insertedWindowDims := [0]
  scatterDimsToOperandDims := [0]
  indexVectorDim := 0
  wf := scatter_S25_S1_S__n_0_0_0_wf
def dot_S32x512x25x128_S64x128_S32x512x25x64_3_1_012_0_n_n : DotDims S32x512x25x128 S64x128 S32x512x25x64 where
  lhsContracting := [3]
  rhsContracting := [1]
  lhsNonContracting := [0, 1, 2]
  rhsNonContracting := [0]
  lhsBatch := []
  rhsBatch := []
  wf := dot_S32x512x25x128_S64x128_S32x512x25x64_3_1_012_0_n_n_wf
def dot_S32x512x25x64_S64x128_S32x512x25x128_3_0_012_1_n_n : DotDims S32x512x25x64 S64x128 S32x512x25x128 where
  lhsContracting := [3]
  rhsContracting := [0]
  lhsNonContracting := [0, 1, 2]
  rhsNonContracting := [1]
  lhsBatch := []
  rhsBatch := []
  wf := dot_S32x512x25x64_S64x128_S32x512x25x128_3_0_012_1_n_n_wf

class Facts : Prop extends Facts₀ where

variable [Facts]
-- ==== Proof.GateAlgebra.lean ====
/-
  The algebra that joins the two programs, on the extended reals, one row at a time.

  A data row `x : Fin 128 → EReal` is scored against each row of a prompt table by the logistic function of their
  dot product. A score passes a slot's gate when it is above the threshold `h` and the slot is switched on; the
  switches are a number `kp` that is zero or one for the first table and `1 - kp` for the second.

  One program stacks the two tables into one of 128 rows, selects the passing scores (anything else becomes zero)
  and adds ONE sum of 128 products to the row. The other keeps the tables apart, multiplies each score by the
  comparison's bit read as a number and by the switch, and adds TWO sums of 64 products, one after the other.
  For a switch that is zero or one the two gates are the same number; a sum over 128 indices is the sum over the
  first 64 plus the sum over the last 64; and addition on the extended reals is associative. Nothing here needs an
  entry to be finite: no product is distributed over a sum and nothing is cancelled.
-/
import Idealize.ShloMosaic.PureOps.Ideal
import Idealize.ShloMosaic.PureOps.Ideal.Laws
import Idealize.ShloMosaic.Lib.ValueIdx

noncomputable section

namespace Cert.PromptGate

open Idealize.ShloMosaic Idealize.ShloMosaic.ValueIdx

/-! ## The two float words the switches are built from -/

/-- The single-precision word of `1.0` is the number one. -/
theorem word_one : Ideal.ofBits .f32 0x3F800000#32 = 1 := by
  simp [Ideal.ofBits, Ideal.ieee, -EReal.coe_mul]; norm_num

/-- The single-precision word of `+0.0` is the number zero. -/
theorem word_zero : Ideal.ofBits .f32 0x00000000#32 = 0 := Ideal.ofBits_zero_f32

/-! ## Numbers that are zero or one -/

/-- A switch: zero or one. -/
def IsBit (a : EReal) : Prop := a = 0 ∨ a = 1

theorem isBit_zero : IsBit 0 := Or.inl rfl
theorem isBit_one : IsBit 1 := Or.inr rfl

/-- A product of switches is a switch. -/
theorem isBit_mul {a b : EReal} (ha : IsBit a) (hb : IsBit b) : IsBit (a * b) := by
  rcases ha with rfl | rfl
  · exact Or.inl (zero_mul b)
  · rw [one_mul]; exact hb

/-- The complement of a switch is a switch. -/
theorem isBit_one_sub {a : EReal} (ha : IsBit a) : IsBit (1 - a) := by
  rcases ha with rfl | rfl
  · exact Or.inr (sub_zero 1)
  · refine Or.inl ?_
    rw [← EReal.coe_one, ← EReal.coe_sub, sub_self, EReal.coe_zero]

/-! ## The gate, spelt twice -/

/-- The selecting gate: the score where it is above the threshold and the slot is on, zero elsewhere. -/
def gate (σ h mask : EReal) : EReal := if h < σ ∧ 0 < mask then σ else 0

/-- The multiplying gate: the score times the comparison's bit read as a number, times the switch. -/
def softGate (σ h mask : EReal) : EReal := σ * (((Ideal.cmp .ogt σ h).toNat : ℝ) : EReal) * mask

/-- For a switch that is zero or one the two gates are one number. -/
theorem softGate_eq_gate (σ h : EReal) {mask : EReal} (hm : IsBit mask) : softGate σ h mask = gate σ h mask := by
  unfold softGate gate Ideal.cmp
  rcases hm with rfl | rfl
  · rw [mul_zero, if_neg (fun hh => lt_irrefl _ hh.2)]
  · rw [mul_one]
    by_cases hlt : h < σ
    · simp [hlt]
    · simp [hlt]

/-! ## A row's scores and the two results -/

/-- The score of the data row `x` against row `c` of a prompt table with `N` rows. -/
def score {N : ℕ} (x : Fin 128 → EReal) (w : (⟨2, ![N, 128]⟩ : Shape).Idx → EReal) (c : Fin N) : EReal :=
  Ideal.logistic (∑ k : Fin 128, x k * w (ix2 c k))

/-- The switch of slot `c` of the stacked table: `kp` for the first 64 slots, its complement for the last 64. -/
def slotMask (kp : EReal) (c : Fin 128) : EReal := if c.val < 64 then kp else 1 - kp

/-- The row after one pass over the stacked table of 128 prompt rows. -/
def fusedRow (x : Fin 128 → EReal) (w : (⟨2, ![128, 128]⟩ : Shape).Idx → EReal) (kp h : EReal) (d : Fin 128) : EReal :=
  x d + ∑ c : Fin 128, gate (score x w c) h (slotMask kp c) * w (ix2 c d)

/-- The row after two passes, first over the table `u` with the switch `kp`, then over `m` with its complement. -/
def twoPassRow (x : Fin 128 → EReal) (u m : (⟨2, ![64, 128]⟩ : Shape).Idx → EReal) (kp h : EReal) (d : Fin 128) : EReal :=
  (x d + ∑ k : Fin 64, softGate (score x u k) h kp * u (ix2 k d))
    + ∑ k : Fin 64, softGate (score x m k) h (1 - kp) * m (ix2 k d)

/-- A sum over 128 indices is the sum over the first 64 plus the sum over the last 64. -/
theorem sum_halves (f : Fin 128 → EReal) :
    ∑ c : Fin 128, f c = ∑ k : Fin 64, f (Fin.castAdd 64 k) + ∑ k : Fin 64, f (Fin.natAdd 64 k) :=
  Fin.sum_univ_add (M := EReal) (a := 64) (b := 64) f

/-- When the stacked table is `u` above `m` and the switch is zero or one, one pass over the stack is the two passes. -/
theorem fusedRow_eq_twoPassRow (x : Fin 128 → EReal) (w : (⟨2, ![128, 128]⟩ : Shape).Idx → EReal)
    (u m : (⟨2, ![64, 128]⟩ : Shape).Idx → EReal) (kp h : EReal) (hkp : IsBit kp)
    (hu : ∀ (k : Fin 64) (d : Fin 128), w (ix2 (Fin.castAdd 64 k) d) = u (ix2 k d))
    (hm : ∀ (k : Fin 64) (d : Fin 128), w (ix2 (Fin.natAdd 64 k) d) = m (ix2 k d)) (d : Fin 128) :
    fusedRow x w kp h d = twoPassRow x u m kp h d := by
  unfold fusedRow twoPassRow
  rw [sum_halves, ← add_assoc]
  congr 1
  · congr 1
    refine Finset.sum_congr rfl fun k _ => ?_
    have hs : score x w (Fin.castAdd 64 k) = score x u k := by
      unfold score
      exact congrArg _ (Finset.sum_congr rfl fun j _ => by rw [hu k j])
    have hk : slotMask kp (Fin.castAdd 64 k) = kp := if_pos k.isLt
    rw [hs, hk, hu k d, softGate_eq_gate _ _ hkp]
  · refine Finset.sum_congr rfl fun k _ => ?_
    have hs : score x w (Fin.natAdd 64 k) = score x m k := by
      unfold score
      exact congrArg _ (Finset.sum_congr rfl fun j _ => by rw [hm k j])
    have hk : slotMask kp (Fin.natAdd 64 k) = 1 - kp :=
      if_neg (by show ¬ (64 + k.val < 64); omega)
    rw [hs, hk, hm k d, softGate_eq_gate _ _ (isBit_one_sub hkp)]

/-! ## The whole result -/

/-- The threshold both programs compare a score with: the single-precision word of one half. It is the same word on
    both sides and is never evaluated. -/
abbrev half : EReal := Ideal.ofBits .f32 0x3F000000#32

/-- The result array, entry by entry: entry (b, n, p, d) is entry d of the two-pass row of the data row (b, n, p),
    with the switch the keep table holds at (n, p). -/
def promptResult (x : (⟨4, ![32, 512, 25, 128]⟩ : Shape).Idx → EReal) (u m : (⟨2, ![64, 128]⟩ : Shape).Idx → EReal)
    (keep : (⟨2, ![512, 25]⟩ : Shape).Idx → EReal) : (⟨4, ![32, 512, 25, 128]⟩ : Shape).Idx → EReal :=
  fun i => twoPassRow (fun d => x (ix4 (i 0) (i 1) (i 2) d)) u m (keep (ix2 (i 1) (i 2))) half (i 3)

end Cert.PromptGate

end
-- ==== Proof.ReferenceValue.lean ====
/-
  The reference program's result is the two-pass row, entry by entry.

  Read one operation at a time, entry (b, n, p, d) of the reference's result is the data entry plus the sum over the
  64 rows k of the first table of (score · bit · keep) · u (k, d), plus the same sum over the second table with the
  complement of keep, where the score of row k is one over one plus the exponential of minus the dot product of the
  data row (b, n, p) with table row k: the logistic function, spelt out. The word of 1.0 in that spelling is the
  number one. Every index the chain of operations composes is the plain coordinate tuple.
-/
import proofs.«143461_j56719338111252_2_alg».proof.Proof.Gen.ReferenceIdeal.Read
import proofs.«143461_j56719338111252_2_alg».proof.Proof.GateAlgebra

noncomputable section

namespace Cert.PromptGate

open Idealize.ShloMosaic Idealize.ShloMosaic.ValueIdx Cert.ReferenceIdeal Cert.ReferenceIdeal.Read

/-- Entry (b, n, p, d) of the reference's result. -/
theorem reference_entry (x0 : (⟨S32x512x25x128, .f32⟩ : BufTy).Contents (Elt Ideal))
    (x1 x2 : (⟨S64x128, .f32⟩ : BufTy).Contents (Elt Ideal)) (x3 : (⟨S256, .i32⟩ : BufTy).Contents (Elt Ideal))
    (b : Fin 32) (n : Fin 512) (p : Fin 25) (d : Fin 128) :
    val_main_v49 (F := Ideal) x0 x1 x2 x3 (ix4 b n p d)
      = twoPassRow (fun d' => x0 (ix4 b n p d')) x1 x2 (val_main_v16 (F := Ideal) x3 (ix2 n p)) half d := by
  have a1 : ∀ (k : Fin 64) (k' : Fin 128), lidx_main_v18 (lidx_main_v31 (ix4 b n p d) k) k' = ix4 b n p k' :=
    fun k k' => funext fun a => Fin.ext (by match a with | ⟨0, _⟩ => rfl | ⟨1, _⟩ => rfl | ⟨2, _⟩ => rfl | ⟨3, _⟩ => rfl)
  have a2 : ∀ (k : Fin 64) (k' : Fin 128), ridx_main_v18 (lidx_main_v31 (ix4 b n p d) k) k' = ix2 k k' :=
    fun k k' => funext fun a => Fin.ext (by match a with | ⟨0, _⟩ => rfl | ⟨1, _⟩ => rfl)
  have a3 : ∀ k : Fin 64, idx_main_v17 (idx_main_v29 (lidx_main_v31 (ix4 b n p d) k)) = ix2 n p :=
    fun k => funext fun a => Fin.ext (by match a with | ⟨0, _⟩ => rfl | ⟨1, _⟩ => rfl)
  have a4 : ∀ k : Fin 64, ridx_main_v31 (ix4 b n p d) k = ix2 k d :=
    fun k => funext fun a => Fin.ext (by match a with | ⟨0, _⟩ => rfl | ⟨1, _⟩ => rfl)
  have b1 : ∀ (k : Fin 64) (k' : Fin 128), lidx_main_v33 (lidx_main_v48 (ix4 b n p d) k) k' = ix4 b n p k' :=
    fun k k' => funext fun a => Fin.ext (by match a with | ⟨0, _⟩ => rfl | ⟨1, _⟩ => rfl | ⟨2, _⟩ => rfl | ⟨3, _⟩ => rfl)
  have b2 : ∀ (k : Fin 64) (k' : Fin 128), ridx_main_v33 (lidx_main_v48 (ix4 b n p d) k) k' = ix2 k k' :=
    fun k k' => funext fun a => Fin.ext (by match a with | ⟨0, _⟩ => rfl | ⟨1, _⟩ => rfl)
  have b3 : ∀ k : Fin 64, idx_main_v17 (idx_main_v46 (lidx_main_v48 (ix4 b n p d) k)) = ix2 n p :=
    fun k => funext fun a => Fin.ext (by match a with | ⟨0, _⟩ => rfl | ⟨1, _⟩ => rfl)
  have b4 : ∀ k : Fin 64, ridx_main_v48 (ix4 b n p d) k = ix2 k d :=
    fun k => funext fun a => Fin.ext (by match a with | ⟨0, _⟩ => rfl | ⟨1, _⟩ => rfl)
  rw [val_main_v49_apply, val_main_v32_apply, val_main_v31_apply, val_main_v48_apply]
  simp only [val_main_v30_apply, val_main_v28_apply, val_main_v24_apply, val_main_v27_apply, val_main_v26_apply,
    val_main_v23_apply, val_main_cst_6_apply, val_main_v22_apply, val_main_v21_apply, val_main_cst_5_apply,
    val_main_v20_apply, val_main_v19_apply, val_main_v18_apply, val_main_v25_apply, val_main_cst_7_apply,
    val_main_v29_apply, val_main_v17_apply,
    val_main_v47_apply, val_main_v43_apply, val_main_v39_apply, val_main_v42_apply, val_main_v41_apply,
    val_main_v38_apply, val_main_cst_9_apply, val_main_v37_apply, val_main_v36_apply, val_main_cst_8_apply,
    val_main_v35_apply, val_main_v34_apply, val_main_v33_apply, val_main_v40_apply, val_main_cst_10_apply,
    val_main_v46_apply, val_main_v45_apply, val_main_v44_apply, val_main_cst_11_apply,
    a1, a2, a3, a4, b1, b2, b3, b4, Ideal.ofBits_def, word_one]
  rfl

/-- The reference's result array is the specified one, at the keep table the reference computes. -/
theorem reference_eq (x0 : (⟨S32x512x25x128, .f32⟩ : BufTy).Contents (Elt Ideal))
    (x1 x2 : (⟨S64x128, .f32⟩ : BufTy).Contents (Elt Ideal)) (x3 : (⟨S256, .i32⟩ : BufTy).Contents (Elt Ideal)) :
    val_main_v49 (F := Ideal) x0 x1 x2 x3 = promptResult x0 x1 x2 (val_main_v16 (F := Ideal) x3) := by
  funext i
  obtain ⟨b, n, p, d, rfl⟩ : ∃ (b : Fin 32) (n : Fin 512) (p : Fin 25) (d : Fin 128), i = ix4 b n p d :=
    ⟨i 0, i 1, i 2, i 3, eq_ix4 i⟩
  exact reference_entry x0 x1 x2 x3 b n p d

end Cert.PromptGate

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KernelRow.lean ====
/-
  One entry of what the kernel's body stores, as the fused row.

  The body holds a block of 4096 data rows, the stacked table of 128 prompt rows and a column of 4096 switches. Row p
  of its result depends only on row p of the data, on the whole table and on switch p: the score of slot c is the
  logistic function of the dot product of data row p with table row c (a matrix product with the table contracted
  along its rows, into a zero accumulator); the slot's switch is the column's entry for c below 64 and its
  complement from 64 on; the gate keeps the score where it is above one half and the switch is above zero, zero
  elsewhere; the gated scores times the table (a plain matrix product into a zero accumulator) are added to the data
  row. Changes of float format are the identity on the extended reals.
-/
import proofs.«143461_j56719338111252_2_alg».proof.Proof.Gen.KernelIdeal.Skeleton
import proofs.«143461_j56719338111252_2_alg».proof.Proof.LibDotNT
import proofs.«143461_j56719338111252_2_alg».proof.Proof.LibDense
import proofs.«143461_j56719338111252_2_alg».proof.Proof.GateAlgebra
import Idealize.ShloMosaic.Lib.ValueIdx
import Idealize.ShloMosaic.Lib.ValueIdxCoords
import Idealize.ShloMosaic.Lib.Pipeline.Value
import Idealize.ShloMosaic.Lib.WordArith
import Idealize.ShloMosaic.PureOps.Ideal.Laws

noncomputable section

namespace Cert.PromptGate

open Idealize.ShloMosaic Idealize.ShloMosaic.ValueIdx Idealize.ShloMosaic.WordArith Cert.KernelIdeal Cert.KernelIdeal.Gen

/-- The selecting gate as the body spells it: a select on the conjunction of two comparisons' bits. -/
theorem select_gate (σ h mask : EReal) :
    Scalar.select (IntOp.andi (Ideal.cmp .ogt σ h) (Ideal.cmp .ogt mask (Ideal.ofBits .f32 0x00000000#32))) σ
      (Ideal.ofBits .f32 0x00000000#32) = gate σ h mask := by
  rw [word_zero]
  unfold gate Scalar.select Ideal.cmp
  rw [andi_ofBool]
  simp only [ofBool_eq_numeral_one_iff, ofBool_eq_one_iff, Bool.and_eq_true, decide_eq_true_eq]

/-- The slot's side of the stacked table, as the body decides it: a signed comparison of the lane number with 64. -/
theorem slot_select (c : Fin 128) (a b : EReal) :
    Scalar.select (IntOp.cmpi .slt (BitVec.ofNat 32 c.val) 64#32) a b = if c.val < 64 then a else b := by
  unfold Scalar.select
  have hc : ∀ c : Fin 128, (IntOp.cmpi .slt (BitVec.ofNat 32 c.val) 64#32 = 1) ↔ c.val < 64 := by decide +kernel
  exact if_congr (hc c) rfl rfl

/-- A column of 4096 entries broadcast along 128 lanes, read at (p, c), is the column's entry p. -/
theorem column_broadcast (v : S4096x1.Idx → EReal) (h : S4096x1.Broadcasts S4096x128) (p : Fin 4096) (c : Fin 128) :
    broadcastTo S4096x128 v h (ix2 p c) = v (ix2 p 0) := by
  refine broadcastTo_apply _ h (ix2 p c) (ix2 p 0) (fun a => ?_)
  match a with
  | ⟨0, _⟩ => rfl
  | ⟨1, _⟩ => rfl

/-- The score of slot c for data row p: the matrix product with the table contracted along its rows, then the
    logistic function. -/
theorem score_entry (x0 : FVec Ideal S4096x128 .f32) (x1 : FVec Ideal S128x128 .f32) (p : Fin 4096) (c : Fin 128) :
    logistic (F := Ideal) (matmul dot_S4096x128_S128x128_S4096x128_1_1_0_0_n_n (some .fp32) x0 x1
        (constant (F := Ideal) S4096x128 .f32 0x00000000#32)) (ix2 p c)
      = score (fun d => x0 (ix2 p d)) x1 c := by
  show Ideal.logistic _ = Ideal.logistic _
  congr 1
  exact (Ideal.matmul_constant_zero_apply _ _ _ _ _).trans (Cert.LibDotNT.tr_sum 4096 128 128 x0 x1 (ix2 p c))

/-- The switch of slot c for data row p. -/
theorem mask_entry (x2 : FVec Ideal S4096x1 .bf16) (p : Fin 4096) (c : Fin 128) :
    select (cmpi .slt (iota .tc S4096x128 32 [1] iota_S4096x128_d1_w32) (broadcast S4096x128 64#32))
        (broadcastTo S4096x128 (extf (F := Ideal) .f32 x2 bitsLt_bf16_f32) broadcasts_S4096x1_S4096x128)
        (broadcastTo S4096x128 (subf (F := Ideal) (broadcast S4096x1 (FloatOps.ofBits (F := Ideal) .f32 0x3F800000#32))
          (extf (F := Ideal) .f32 x2 bitsLt_bf16_f32)) broadcasts_S4096x1_S4096x128) (ix2 p c)
      = slotMask (x2 (ix2 p 0)) c := by
  rw [select_apply, column_broadcast, column_broadcast]
  show Scalar.select (IntOp.cmpi .slt (iota .tc S4096x128 32 [1] iota_S4096x128_d1_w32 (ix2 p c)) 64#32) (x2 (ix2 p 0))
      (Ideal.ofBits .f32 0x3F800000#32 - x2 (ix2 p 0)) = _
  rw [iota_single_apply, word_one]
  exact slot_select c _ _

/-- Entry (p, q) of the body's stored value is entry q of the fused row of data row p. -/
theorem payload_entry (x0 : Vec Ideal S4096x128 .f32) (x1 : Vec Ideal S128x128 .f32) (x2 : Vec Ideal S4096x1 .bf16)
    (p : Fin 4096) (q : Fin 128) :
    k0_pay1 (F := Ideal) x0 x1 x2 (ix2 p q) = fusedRow (fun d => x0 (ix2 p d)) x1 (x2 (ix2 p 0)) half q := by
  unfold k0_pay1
  simp only [addf_apply, shapeCast_self]
  unfold fusedRow
  congr 1
  refine (Cert.LibDense.matmul_plain (M := 4096) (K := 128) (N := 128) _ _ (ix2 p q)).trans ?_
  unfold Cert.LibDense.prod
  simp only [ix2_0, ix2_1]
  refine Finset.sum_congr rfl fun c _ => ?_
  congr 1
  show Scalar.select (IntOp.andi (Ideal.cmp .ogt _ half) (Ideal.cmp .ogt _ (Ideal.ofBits .f32 0x00000000#32))) _
      (Ideal.ofBits .f32 0x00000000#32) = _
  rw [score_entry, mask_entry]
  exact select_gate _ _ _

end Cert.PromptGate

end
-- ==== Proof.KernelBlocks.lean ====
/-
  The region's output array is one function of the three arrays the region reads.

  The grid has 100 points; point t stages rows 4096·t … 4096·t + 4095 of the data, the same rows of the switch
  column and the whole stacked table, and writes back the same rows of the output. Row p of a block is row
  4096·t + p of its array, so what point t writes back is block t of the array whose row r is the fused row of data
  row r with switch r. Every row lies in the block of the point r / 4096, so the blocks cover the output array and
  it ends holding that array.
-/
import proofs.«143461_j56719338111252_2_alg».proof.Proof.Gen.KernelIdeal.Frame
import proofs.«143461_j56719338111252_2_alg».proof.Proof.KernelRow
import Idealize.ShloMosaic.Lib.Pipeline.Value
import Idealize.ShloMosaic.Lib.ValueIdx
import Idealize.ShloMosaic.Lib.ValueIdxCoords

set_option maxRecDepth 16384

noncomputable section

namespace Cert.PromptGate

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry (r, d) of the flat result: entry d of the fused row of data row r with switch r. -/
def flatEntry (X : S409600x128.Idx → EReal) (W : S128x128.Idx → EReal) (Kp : S409600x1.Idx → EReal)
    (r : Fin 409600) (d : Fin 128) : EReal :=
  fusedRow (fun d' => X (ix2 r d')) W (Kp (ix2 r 0)) half d

/-- The flat result as an array of 409600 rows. -/
def flatResult (X : S409600x128.Idx → EReal) (W : S128x128.Idx → EReal) (Kp : S409600x1.Idx → EReal) :
    S409600x128.Idx → EReal :=
  fun i => flatEntry X W Kp (i 0) (i 1)

/-- The flat result at a row and a lane. -/
theorem flatResult_ix2 (X : S409600x128.Idx → EReal) (W : S128x128.Idx → EReal) (Kp : S409600x1.Idx → EReal)
    (r : Fin 409600) (d : Fin 128) :
    flatResult X W Kp (ix2 r d) = fusedRow (fun d' => X (ix2 r d')) W (Kp (ix2 r 0)) half d := rfl

/-- The fused row reads its data row, its table and its switch entry by entry. -/
theorem fusedRow_congr {x x' : Fin 128 → EReal} {w w' : (⟨2, ![128, 128]⟩ : Shape).Idx → EReal} {kp kp' : EReal}
    (h : EReal) (d : Fin 128) (hx : ∀ k, x k = x' k) (hw : ∀ i, w i = w' i) (hk : kp = kp') :
    fusedRow x w kp h d = fusedRow x' w' kp' h d := by
  obtain rfl : x = x' := funext hx
  obtain rfl : w = w' := funext hw
  subst hk
  rfl

theorem originZero : (![0, 0] : Fin 2 → Nat) = fun _ => 0 := funext fun a => by fin_cases a <;> rfl

/-- The block index of each window at point t: the data, the switch column and the output move with the point along
    the rows; the table stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the flat result of the arrays as the region finds them. -/
theorem flushed_eq (c : Dev nD) (t : Fin cfg0.N) :
    (dats m 0 c).flushed 3 t
      = ((cfg0.win 3).blk t).view.read (Elt Ideal) (flatResult (V m c main_v24) (V m c main_v23) (V m c main_v22)) := by
  show (cfg0.win 3).cut (grid0.coords t) ((dats m 0 c).after 3 t) = _
  rw [after0_3]
  unfold out0_3
  rw [View.canon_unit_zero originZero]
  simp only [View.ld_unit_zero (S := S4096x128) originZero, View.ld_unit_zero (S := S128x128) originZero,
    View.ld_unit_zero (S := S4096x1) originZero]
  obtain ⟨e00, e01, e10, e11, e20, e21, e30, e31⟩ := block_index t
  have ht : t.val < 100 := lt_of_lt_of_eq t.isLt N_0
  funext j
  obtain ⟨p, q, rfl⟩ : ∃ (p : Fin 4096) (q : Fin 128), j = ix2 p q := ⟨j 0, j 1, eq_ix2 j⟩
  show k0_pay1 (F := Ideal) (iblk m c 0 t) (iblk m c 1 t) (iblk m c 2 t) (ix2 p q)
      = flatResult (V m c main_v24) (V m c main_v23) (V m c main_v22) (((cfg0.win 3).blk t).view.emb (ix2 p q))
  refine (payload_entry (iblk m c 0 t) (iblk m c 1 t) (iblk m c 2 t) p q).trans ?_
  have hp : p.val < 4096 := p.isLt
  have hrow : ((cfg0.win 3).blk t).view.emb (ix2 p q) = ix2 (⟨t.val * 4096 + p.val, by omega⟩ : Fin 409600) q := by
    funext a; apply Fin.ext
    match a with
    | ⟨0, _⟩ => show win0_3.index t (0 : Fin 2) * 4096 + 1 * p.val = t.val * 4096 + p.val; omega
    | ⟨1, _⟩ => show win0_3.index t (1 : Fin 2) * 128 + 1 * q.val = q.val; omega
  rw [hrow, flatResult_ix2]
  refine fusedRow_congr half q (fun d => ?_) (fun y => ?_) ?_
  · show V m c main_v24 (((cfg0.win 0).blk t).view.emb (ix2 p d)) = V m c main_v24 (ix2 (⟨t.val * 4096 + p.val, by omega⟩ : Fin 409600) d)
    refine congrArg (V m c main_v24) (funext fun a => Fin.ext ?_)
    match a with
    | ⟨0, _⟩ => show win0_0.index t (0 : Fin 2) * 4096 + 1 * p.val = t.val * 4096 + p.val; omega
    | ⟨1, _⟩ => show win0_0.index t (1 : Fin 2) * 128 + 1 * d.val = d.val; omega
  · show V m c main_v23 (((cfg0.win 1).blk t).view.emb y) = V m c main_v23 y
    refine congrArg (V m c main_v23) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show V m c main_v22 (((cfg0.win 2).blk t).view.emb (ix2 p 0)) = V m c main_v22 (ix2 (⟨t.val * 4096 + p.val, by omega⟩ : Fin 409600) 0)
    refine congrArg (V m c main_v22) (funext fun a => Fin.ext ?_)
    match a with
    | ⟨0, _⟩ => show win0_2.index t (0 : Fin 2) * 4096 + 1 * p.val = t.val * 4096 + p.val; omega
    | ⟨1, _⟩ => show win0_2.index t (1 : Fin 2) * 1 + 1 * 0 = 0; omega

/-- An index of the output array is in point t's block iff each coordinate is in the block's range on its axis. -/
theorem mem_block (t : Fin cfg0.N) (i : S409600x128.Idx) :
    i ∈ ((cfg0.win 3).blk t).view.set
      ↔ ∀ a : Fin 2, win0_3.index t a * S4096x128.size a ≤ (i a).val ∧ (i a).val < win0_3.index t a * S4096x128.size a + S4096x128.size a := by
  show i ∈ ((View.whole main_v25).slice (win0_3.rect t)).set ↔ _
  rw [View.set_slice_whole, Rect.mem_set_unit]
  exact Iff.rfl

/-- Every block of rows is some point's. -/
theorem block_onto : ∀ q0 : Fin 100, ∃ t : Fin cfg0.N, win0_3.index t = ![q0.val, 0] :=
  (by decide +kernel : ∀ q0 : Fin 100, ∃ t : Fin grid0.N, win0_3.index t = ![q0.val, 0])

/-- The blocks cover the output array: row r is in the block of the point r / 4096. -/
theorem covered (i : S409600x128.Idx) :
    ∃ t : Fin cfg0.N, (cfg0.win 3).flush t = true ∧ i ∈ ((cfg0.win 3).blk t).view.set := by
  have hi0 : (i 0).val < 409600 := (i 0).isLt
  have hi1 : (i 1).val < 128 := (i 1).isLt
  obtain ⟨t, ht⟩ := block_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The output array after the region: the flat result of the arrays the region found. -/
theorem region_result (c : Dev nD) :
    (dats m 0 c).arrAt 3 cfg0.N = flatResult (V m c main_v24) (V m c main_v23) (V m c main_v22) :=
  (dats m 0 c).arrAt_eq_of_cover 3 _ (fun t _ => flushed_eq m c t) covered

end Cert.PromptGate

end
-- ==== Proof.LibScatterAll.lean ====
/-
  A property of every entry survives a scatter.

  A scatter visits its update entries one after the other; each visit either lands outside the operand and changes
  nothing, or replaces one entry by the combiner applied to that entry and the update. So a property that holds of
  every entry of the operand, and that the combiner keeps against every update, holds of every entry of the result:
  by induction on the list of visits, whatever the scatter indices are, in whatever order they come, and however many
  of them fall outside or on the same entry. Generic in the three shapes, the dimension numbers, the index width, the
  element type and the combiner (for the combiner that returns the update: every entry of the result is an entry of
  the operand or one of the updates).
-/
import Idealize.ShloMosaic.PureOps.ShapeOps

namespace Cert.LibScatterAll

open Idealize.ShloMosaic

/-- A property that holds of every entry of the operand and is kept by the combiner against any update holds of
    every entry of the scatter's result. -/
theorem scatter_forall {α : Type} {s si u : Shape} {w : Nat} (d : ScatterDims s si u) (f : α → α → α)
    (x : s.Idx → α) (idx : IVec si w) (upd : u.Idx → α) (P : α → Prop)
    (hx : ∀ i, P (x i)) (hf : ∀ a j, P a → P (f a (upd j))) (i : s.Idx) :
    P (Host.scatter d f x idx upd i) := by
  unfold Host.scatter
  generalize List.finRange u.numel = l
  induction l generalizing x with
  | nil => exact hx i
  | cons n l ih =>
    rw [List.foldl_cons]
    refine ih _ (fun i' => ?_)
    cases d.resultIdx? (u.rowMajor.symm n) idx with
    | none => exact hx i'
    | some i0 =>
      show P (if i' = i0 then f (x i0) (upd (u.rowMajor.symm n)) else x i')
      by_cases h : i' = i0
      · rw [if_pos h]; exact hf _ _ (hx _)
      · rw [if_neg h]; exact hx i'

/-- With the combiner that returns the update: a property shared by the operand's entries and the updates holds of
    every entry of the result. -/
theorem scatter_set_forall {α : Type} {s si u : Shape} {w : Nat} (d : ScatterDims s si u)
    (x : s.Idx → α) (idx : IVec si w) (upd : u.Idx → α) (P : α → Prop)
    (hx : ∀ i, P (x i)) (hu : ∀ j, P (upd j)) (i : s.Idx) :
    P (Host.scatter d (fun _ b => b) x idx upd i) :=
  scatter_forall d (fun _ b => b) x idx upd P hx (fun _ j _ => hu j) i

end Cert.LibScatterAll
-- ==== Proof.KeepBits.lean ====
/-
  The keep table is a table of switches.

  The node mask is a vector of ones into which a scatter writes zeros at the listed node numbers; the time mask is a
  vector of ones with a zero written at one position; the keep table is their outer product. A scatter whose
  combiner returns the update leaves at each position either what was there or one of the updates, so a property
  shared by every original entry and every update holds of every entry of the result, wherever the indices point
  and whichever of them fall outside. Ones and zeros are switches, and a product of switches is a switch.
-/
import proofs.«143461_j56719338111252_2_alg».proof.Proof.Gen.ReferenceIdeal.Read
import proofs.«143461_j56719338111252_2_alg».proof.Proof.GateAlgebra
import proofs.«143461_j56719338111252_2_alg».proof.Proof.LibScatterAll

noncomputable section

namespace Cert.PromptGate

open Idealize.ShloMosaic Cert.ReferenceIdeal Cert.ReferenceIdeal.Read Cert.LibScatterAll

/-- Every entry of the keep table is zero or one, whatever the node numbers are. -/
theorem keep_isBit (x3 : (⟨S256, .i32⟩ : BufTy).Contents (Elt Ideal)) (i : S512x25.Idx) :
    IsBit (val_main_v16 (F := Ideal) x3 i) := by
  rw [val_main_v16_apply, val_main_v14_apply, val_main_v12_apply, val_main_v15_apply, val_main_v13_apply]
  refine isBit_mul ?_ ?_
  · unfold val_main_v8
    refine scatter_set_forall _ _ _ _ IsBit (fun j => ?_) (fun j => ?_) _
    · rw [val_main_v0_apply, val_main_cst_apply]; exact Or.inr word_one
    · rw [val_main_v7_apply, val_main_cst_1_apply]; exact Or.inl word_zero
  · unfold val_main_v11
    refine scatter_set_forall _ _ _ _ IsBit (fun j => ?_) (fun j => ?_) _
    · rw [val_main_v9_apply, val_main_cst_2_apply]; exact Or.inr word_one
    · rw [val_main_cst_4_apply]; exact Or.inl word_zero

end Cert.PromptGate

end
-- ==== Proof.KernelHost.lean ====
/-
  The kernel program around its region: what the region finds, and what the program returns.

  Before the region the program flattens the data [32, 512, 25, 128] to 409600 rows (row b·12800 + n·25 + p is the
  data row (b, n, p)), stacks the two prompt tables (rows 0 … 63 are the first table, rows 64 … 127 the second), and
  lays the keep table out as a column of 409600 switches: the table [512, 25] flattened to 12800 entries, repeated
  for each of the 32 batches and flattened again, so that switch b·12800 + n·25 + p is the keep table's entry (n, p).
  It builds the keep table by the same operations as the reference does. After the region it folds the 409600 rows
  back to [32, 512, 25, 128]. So entry (b, n, p, d) of its result is entry d of the fused row of data row (b, n, p)
  with the switch keep (n, p) — a switch that is zero or one — and that is the two-pass row.
-/
import proofs.«143461_j56719338111252_2_alg».proof.Proof.KernelBlocks
import proofs.«143461_j56719338111252_2_alg».proof.Proof.KeepBits
import Idealize.ShloMosaic.Lib.StableHlo.Run
import Idealize.ShloMosaic.Lib.Pipeline.Value

set_option maxRecDepth 16384

noncomputable section

namespace Cert.PromptGate

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The flat row number of the data row (b, n, p). -/
abbrev flatRow (b : Fin 32) (n : Fin 512) (p : Fin 25) : Fin 409600 :=
  ⟨b.val * 12800 + n.val * 25 + p.val, by have := b.isLt; have := n.isLt; have := p.isLt; omega⟩

/-! ## The data rows -/

/-- The region finds the data flattened to rows. -/
theorem data_array (c : Dev nD) :
    (V m c main_v24 : S409600x128.Idx → EReal)
      = shapeCast S409600x128 (m ((c : Thread nD τ).loc main_arg0)) shapeCasts_S32x512x25x128_S409600x128 := by
  show StableHlo.after hostOps0 (fun b => m (c, b)) (Proc.devRef .tc main_v24) = _
  after_results
  rfl

/-- Row b·12800 + n·25 + p of the flattened data is the data row (b, n, p). -/
theorem data_entry (c : Dev nD) (b : Fin 32) (n : Fin 512) (p : Fin 25) (d : Fin 128) :
    V m c main_v24 (ix2 (flatRow b n p) d) = m ((c : Thread nD τ).loc main_arg0) (ix4 b n p d) := by
  rw [data_array]
  exact shapeCast_apply _ _ _ (ix4 b n p d) (by
    rw [Shape.rowMajor_val_four, Shape.rowMajor_val_two]
    show ((b.val * 512 + n.val) * 25 + p.val) * 128 + d.val = (b.val * 12800 + n.val * 25 + p.val) * 128 + d.val
    omega)

/-! ## The stacked table -/

/-- The region finds the two prompt tables stacked. -/
theorem table_array (c : Dev nD) :
    (V m c main_v23 : S128x128.Idx → EReal)
      = concatenate S128x128 0 [⟨S64x128, m ((c : Thread nD τ).loc main_arg1)⟩, ⟨S64x128, m ((c : Thread nD τ).loc main_arg2)⟩]
          concatenates_S64x128_S64x128_S128x128_d0 := by
  show StableHlo.after hostOps0 (fun b => m (c, b)) (Proc.devRef .tc main_v23) = _
  after_results

/-- The first 64 rows of the stack are the first table. -/
theorem table_upper (c : Dev nD) (k : Fin 64) (d : Fin 128) :
    V m c main_v23 (ix2 (Fin.castAdd 64 k) d)
      = (m ((c : Thread nD τ).loc main_arg1) : (⟨2, ![64, 128]⟩ : Shape).Idx → EReal) (ix2 k d) := by
  rw [table_array]
  exact concatenate_pair_apply_left (t := S128x128) (s₁ := S64x128) (s₂ := S64x128) 0
    (m ((c : Thread nD τ).loc main_arg1)) (m ((c : Thread nD τ).loc main_arg2)) concatenates_S64x128_S64x128_S128x128_d0
    (ix2 (Fin.castAdd 64 k) d) rfl (ix2 k d)
    (fun b => by match b with | ⟨0, _⟩ => rfl | ⟨1, _⟩ => rfl)

/-- The last 64 rows of the stack are the second table. -/
theorem table_lower (c : Dev nD) (k : Fin 64) (d : Fin 128) :
    V m c main_v23 (ix2 (Fin.natAdd 64 k) d)
      = (m ((c : Thread nD τ).loc main_arg2) : (⟨2, ![64, 128]⟩ : Shape).Idx → EReal) (ix2 k d) := by
  rw [table_array]
  exact concatenate_pair_apply_right (t := S128x128) (s₁ := S64x128) (s₂ := S64x128) 0
    (m ((c : Thread nD τ).loc main_arg1)) (m ((c : Thread nD τ).loc main_arg2)) concatenates_S64x128_S64x128_S128x128_d0
    (ix2 (Fin.natAdd 64 k) d) rfl rfl (ix2 k d)
    (fun b hb => by
      match b, hb with
      | ⟨0, _⟩, hb => exact absurd rfl hb
      | ⟨1, _⟩, _ => rfl)
    (by show k.val + 64 = 64 + k.val; omega)

/-! ## The switch column -/

set_option maxHeartbeats 2000000 in
/-- The region finds the keep table laid out as a column of 409600 switches. The keep table is built by the same
    operations in both programs. -/
theorem switch_column (c : Dev nD) :
    (V m c main_v22 : S409600x1.Idx → EReal)
      = truncf (F := Ideal) .bf16 (shapeCast S409600x1 (shapeCast S409600 (broadcastInDim S32x12800 ![0, 1] bcast_S1x12800_S32x12800_0_1
          (shapeCast S1x12800 (shapeCast S12800
            (Cert.ReferenceIdeal.Read.val_main_v16 (F := Ideal) (m ((c : Thread nD τ).loc main_arg3)))
            shapeCasts_S512x25_S12800) shapeCasts_S12800_S1x12800)) shapeCasts_S32x12800_S409600)
          shapeCasts_S409600_S409600x1) bitsLt_bf16_f32 := by
  show StableHlo.after hostOps0 (fun b => m (c, b)) (Proc.devRef .tc main_v22) = _
  after_results_simp
  rfl

/-- Switch b·12800 + n·25 + p is the keep table's entry (n, p). -/
theorem switch_entry (c : Dev nD) (b : Fin 32) (n : Fin 512) (p : Fin 25) :
    V m c main_v22 (ix2 (flatRow b n p) 0)
      = Cert.ReferenceIdeal.Read.val_main_v16 (F := Ideal) (m ((c : Thread nD τ).loc main_arg3)) (ix2 n p) := by
  have hn := n.isLt
  have hp := p.isLt
  have hb := b.isLt
  rw [switch_column, truncf_apply]
  refine (shapeCast_apply _ _ (ix2 (flatRow b n p) 0) (ix1 (flatRow b n p)) (by
    rw [Shape.rowMajor_val_one, Shape.rowMajor_val_two]
    show b.val * 12800 + n.val * 25 + p.val = (b.val * 12800 + n.val * 25 + p.val) * 1 + 0
    omega)).trans ?_
  refine (shapeCast_apply _ _ (ix1 (flatRow b n p)) (ix2 b (⟨n.val * 25 + p.val, by omega⟩ : Fin 12800)) (by
    rw [Shape.rowMajor_val_two, Shape.rowMajor_val_one]
    show b.val * 12800 + (n.val * 25 + p.val) = b.val * 12800 + n.val * 25 + p.val
    omega)).trans ?_
  refine (broadcastInDim_apply _ _ _ (ix2 b (⟨n.val * 25 + p.val, by omega⟩ : Fin 12800))
    (ix2 (0 : Fin 1) (⟨n.val * 25 + p.val, by omega⟩ : Fin 12800)) (fun a => by
      match a with
      | ⟨0, _⟩ => rfl
      | ⟨1, _⟩ => rfl)).trans ?_
  refine (shapeCast_apply _ _ (ix2 (0 : Fin 1) (⟨n.val * 25 + p.val, by omega⟩ : Fin 12800))
    (ix1 (⟨n.val * 25 + p.val, by omega⟩ : Fin 12800)) (by
    rw [Shape.rowMajor_val_one, Shape.rowMajor_val_two]
    show n.val * 25 + p.val = 0 * 12800 + (n.val * 25 + p.val)
    omega)).trans ?_
  exact shapeCast_apply _ _ (ix1 (⟨n.val * 25 + p.val, by omega⟩ : Fin 12800)) (ix2 n p) (by
    rw [Shape.rowMajor_val_two, Shape.rowMajor_val_one]
    show n.val * 25 + p.val = n.val * 25 + p.val
    rfl)

/-! ## After the region -/

/-- The program's result is the region's output array folded back to [32, 512, 25, 128]. -/
theorem tail_value (c : Dev nD) :
    (Pipeline.afterTail₀ cfgs (dats m) 0 (V0 m) [hostOps1] c main_v26 : S32x512x25x128.Idx → EReal)
      = shapeCast S32x512x25x128 (flatResult (V m c main_v24) (V m c main_v23) (V m c main_v22))
          shapeCasts_S409600x128_S32x512x25x128 := by
  have hw : Pipeline.withArrays (cfgs 0).spec c (V0 m c) (fun w => (dats m 0 c).arrAt w (cfgs 0).N) (Proc.devRef .tc main_v25)
      = flatResult (V m c main_v24) (V m c main_v23) (V m c main_v22) :=
    (Pipeline.withArrays_arr spec0 launch0.win.arr_inj c _ _ 3).trans (region_result m c)
  unfold Pipeline.afterTail₀
  show StableHlo.after hostOps1 _ (Proc.devRef .tc main_v26) = _
  after_results
  rw [hw]
  rfl

/-- Entry (b, n, p, d) of the kernel program's result is entry d of the two-pass row of the data row (b, n, p) with
    the switch keep (n, p). -/
theorem kernel_entry (c : Dev nD) (b : Fin 32) (n : Fin 512) (p : Fin 25) (d : Fin 128) :
    (Pipeline.afterTail₀ cfgs (dats m) 0 (V0 m) [hostOps1] c main_v26 : S32x512x25x128.Idx → EReal) (ix4 b n p d)
      = twoPassRow (fun d' => m ((c : Thread nD τ).loc main_arg0) (ix4 b n p d'))
          (m ((c : Thread nD τ).loc main_arg1)) (m ((c : Thread nD τ).loc main_arg2))
          (Cert.ReferenceIdeal.Read.val_main_v16 (F := Ideal) (m ((c : Thread nD τ).loc main_arg3)) (ix2 n p)) half d := by
  rw [tail_value]
  refine (shapeCast_apply _ _ (ix4 b n p d) (ix2 (flatRow b n p) d) (by
    rw [Shape.rowMajor_val_two, Shape.rowMajor_val_four]
    show (b.val * 12800 + n.val * 25 + p.val) * 128 + d.val = ((b.val * 512 + n.val) * 25 + p.val) * 128 + d.val
    omega)).trans ?_
  rw [flatResult_ix2]
  refine (fusedRow_congr half d (fun k => data_entry m c b n p k) (fun _ => rfl) (switch_entry m c b n p)).trans ?_
  exact fusedRow_eq_twoPassRow _ _ _ _ _ _ (keep_isBit _ _) (table_upper m c) (table_lower m c) d

/-- The kernel program's result array is the specified one, at the keep table both programs compute. -/
theorem kernel_value (c : Dev nD) :
    (Pipeline.afterTail₀ cfgs (dats m) 0 (V0 m) [hostOps1] c main_v26 : S32x512x25x128.Idx → EReal)
      = promptResult (m ((c : Thread nD τ).loc main_arg0)) (m ((c : Thread nD τ).loc main_arg1))
          (m ((c : Thread nD τ).loc main_arg2))
          (Cert.ReferenceIdeal.Read.val_main_v16 (F := Ideal) (m ((c : Thread nD τ).loc main_arg3))) := by
  funext i
  obtain ⟨b, n, p, d, rfl⟩ : ∃ (b : Fin 32) (n : Fin 512) (p : Fin 25) (d : Fin 128), i = ix4 b n p d :=
    ⟨i 0, i 1, i 2, i 3, eq_ix4 i⟩
  exact kernel_entry m c b n p d

/-- Every weakly fair execution of the kernel program ends with its result at the specified array and its arguments
    as launched. -/
theorem kernel_run : θ_run defs (onTc (τ := τ) (main (F := Ideal))) ⟨m, fun _ => 0, ρ⟩ fun r => ∀ c : Dev nD,
      r.2.mem ((c.tc : Thread nD τ).loc main_v26)
          = promptResult (m ((c : Thread nD τ).loc main_arg0)) (m ((c : Thread nD τ).loc main_arg1))
              (m ((c : Thread nD τ).loc main_arg2))
              (Cert.ReferenceIdeal.Read.val_main_v16 (F := Ideal) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v26 (Pipeline.mem_restRefs_of main_v26 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.PromptGate

end
-- ==== Proof.lean ====
/-
  Prompt extrapolation with gated scores: the fused kernel against the two-pass reference, on the extended reals.

  Every data row x (one per batch b, node n and time patch p; 128 entries) is scored against 64 "unmasked" and 64
  "masked" prompt rows by the logistic function of a dot product. A score counts when it is above one half and its
  slot is switched on: the unmasked slots are on where keep (n, p) = 1, the masked slots where keep (n, p) = 0, and
  keep is the outer product of a node mask (ones, with zeros scattered at the listed nodes) and a time mask (ones,
  with a zero at the last patch). The counted scores times their prompt rows are added to the data row.

  The reference does this in two passes of 64 prompts, multiplying each score by the comparison's bit and by keep,
  respectively 1 - keep. The kernel flattens (b, n, p) to 409600 rows, stacks the two tables into 128 rows, selects
  the counted scores in one pass and adds one product with the stacked table; it handles 4096 rows per grid point.

  The two results are one array: keep is zero or one, so the selecting gate and the multiplying gate agree; a sum
  over 128 slots is the sum over the first 64 plus the sum over the last 64; addition is associative; the logistic
  function the kernel applies is the expression the reference spells; changes of float format are the identity.
  None of this needs an entry to be finite, so the precondition is not opened. The idealization rewrote nothing, so
  the kernel's idealized program is its own text.
-/
import proofs.«143461_j56719338111252_2_alg».proof.Defs
import proofs.«143461_j56719338111252_2_alg».proof.Proof.Gen.Kernel
import proofs.«143461_j56719338111252_2_alg».proof.Proof.Gen.Kernel.Skeleton
import proofs.«143461_j56719338111252_2_alg».proof.Proof.Gen.Kernel.Launch
import proofs.«143461_j56719338111252_2_alg».proof.Proof.Gen.Kernel.Points
import proofs.«143461_j56719338111252_2_alg».proof.Proof.Gen.Kernel.Frame
import proofs.«143461_j56719338111252_2_alg».proof.Proof.Gen.KernelIdeal
import proofs.«143461_j56719338111252_2_alg».proof.Proof.Gen.KernelIdeal.Skeleton
import proofs.«143461_j56719338111252_2_alg».proof.Proof.Gen.KernelIdeal.Launch
import proofs.«143461_j56719338111252_2_alg».proof.Proof.Gen.KernelIdeal.Points
import proofs.«143461_j56719338111252_2_alg».proof.Proof.Gen.KernelIdeal.Frame
import proofs.«143461_j56719338111252_2_alg».proof.Proof.Gen.ReferenceIdeal
import proofs.«143461_j56719338111252_2_alg».proof.Proof.Gen.ReferenceIdeal.Run
import proofs.«143461_j56719338111252_2_alg».proof.Proof.Gen.ReferenceIdeal.Read
import proofs.«143461_j56719338111252_2_alg».proof.Proof.Gen.Pre_finite_inputs
import proofs.«143461_j56719338111252_2_alg».proof.Proof.ReferenceValue
import proofs.«143461_j56719338111252_2_alg».proof.Proof.KernelHost
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference is a straight line of host operations: it runs to the end and leaves its arguments alone. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the specified array: the kernel's by reading its region's
    output block by block and its host operations around it, the reference's by reading its operations one by one. -/
theorem algebraic : Cert.algebraic_KernelIdeal_ReferenceIdeal := by
  intro m ρ m' ρ' _ hagree
  refine ⟨_, Cert.PromptGate.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v49_eq, Cert.PromptGate.reference_eq,
    (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
